-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x150 : S_.BroadcastsInDim S3x150 (![] : Fin 0 → Fin S3x150.rank)
  reducesTo_S3x150_S_d0_1 : S3x150.ReducesTo [0, 1] S_
  bcast_S_S150 : S_.BroadcastsInDim S150 (![] : Fin 0 → Fin S150.rank)
  reducesTo_S150_S_d0 : S150.ReducesTo [0] S_
  bcast_S_S150x64 : S_.BroadcastsInDim S150x64 (![] : Fin 0 → Fin S150x64.rank)
  reducesTo_S150x64_S_d0_1 : S150x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S150x64 .f32) (main_arg7 : FVec F S150x64 .f32) (main_arg8 : FVec F S64 .f32) (main_v13 : IVec S_ 1) (main_v16 : IVec S150 1) : IVec S_ 1 :=
  let main_c_5 : IVec S_ 1 := constantI S_ 1 1#1
  let main_v17 : IVec S_ 1 := (fun x v => Host.reduce IntOp.andi x v reducesTo_S150_S_d0 h_S_) main_v16 main_c_5
  let main_v18 : IVec S_ 1 := andi main_v13 main_v17
  let main_v19 : FVec F S150x64 .f32 := Host.absf main_arg6
  let main_cst_6 : FVec F S_ .f32 := constant S_ .f32 0x7F800000#32
  let main_v20 : FVec F S150x64 .f32 := broadcastInDim S150x64 ![] bcast_S_S150x64 main_cst_6
  let main_v21 : IVec S150x64 1 := cmpf .olt main_v19 main_v20
  let main_c_7 : IVec S_ 1 := constantI S_ 1 1#1
  let main_v22 : IVec S_ 1 := (fun x v => Host.reduce IntOp.andi x v reducesTo_S150x64_S_d0_1 h_S_) main_v21 main_c_7
  let main_v23 : IVec S_ 1 := andi main_v18 main_v22
  let main_v24 : FVec F S150x64 .f32 := Host.absf main_arg7
  let main_cst_8 : FVec F S_ .f32 := constant S_ .f32 0x7F800000#32
  let main_v25 : FVec F S150x64 .f32 := broadcastInDim S150x64 ![] bcast_S_S150x64 main_cst_8
  let main_v26 : IVec S150x64 1 := cmpf .olt main_v24 main_v25
  let main_c_9 : IVec S_ 1 := constantI S_ 1 1#1
  let main_v27 : IVec S_ 1 := (fun x v => Host.reduce IntOp.andi x v reducesTo_S150x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x3 .f32) (main_arg1 : IVec S1600000 32) (main_arg2 : IVec S1600000 32) (main_arg3 : FVec F S3x150 .f32) (main_arg4 : FVec F S3x150 .f32) (main_arg5 : FVec F S150 .f32) (main_arg6 : FVec F S150x64 .f32) (main_arg7 : FVec F S150x64 .f32) (main_arg8 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x150 .f32 := Host.absf main_arg3
  let main_cst_0 : FVec F S_ .f32 := constant S_ .f32 0x7F800000#32
  let main_v5 : FVec F S3x150 .f32 := broadcastInDim S3x150 ![] bcast_S_S3x150 main_cst_0
  let main_v6 : IVec S3x150 1 := cmpf .olt main_v4 main_v5
  let main_c_1 : IVec S_ 1 := constantI S_ 1 1#1
  let main_v7 : IVec S_ 1 := (fun x v => Host.reduce IntOp.andi x v reducesTo_S3x150_S_d0_1 h_S_) main_v6 main_c_1
  let main_v8 : IVec S_ 1 := andi main_v3 main_v7
  let main_v9 : FVec F S3x150 .f32 := Host.absf main_arg4
  let main_cst_2 : FVec F S_ .f32 := constant S_ .f32 0x7F800000#32
  let main_v10 : FVec F S3x150 .f32 := broadcastInDim S3x150 ![] bcast_S_S3x150 main_cst_2
  let main_v11 : IVec S3x150 1 := cmpf .olt main_v9 main_v10
  let main_c_3 : IVec S_ 1 := constantI S_ 1 1#1
  let main_v12 : IVec S_ 1 := (fun x v => Host.reduce IntOp.andi x v reducesTo_S3x150_S_d0_1 h_S_) main_v11 main_c_3
  let main_v13 : IVec S_ 1 := andi main_v8 main_v12
  let main_v14 : FVec F S150 .f32 := Host.absf main_arg5
  let main_cst_4 : FVec F S_ .f32 := constant S_ .f32 0x7F800000#32
  let main_v15 : FVec F S150 .f32 := broadcastInDim S150 ![] bcast_S_S150 main_cst_4
  let main_v16 : IVec S150 1 := cmpf .olt main_v14 main_v15
  fn_part1 (F := F) main_arg6 main_arg7 main_arg8 main_v13 main_v16
-- ==== Kernel.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S1x150 : Shape := ⟨2, ![1, 150]⟩
abbrev S100000x150 : Shape := ⟨2, ![100000, 150]⟩
abbrev S5000x3 : Shape := ⟨2, ![5000, 3]⟩
abbrev S5000x150 : Shape := ⟨2, ![5000, 150]⟩
abbrev S1600000x150 : Shape := ⟨2, ![1600000, 150]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x3, .f32⟩
  | .hbm, ⟨1, _⟩ => ⟨S1600000, .i32⟩
  | .hbm, ⟨2, _⟩ => ⟨S1600000, .i32⟩
  | .hbm, ⟨3, _⟩ => ⟨S3x150, .f32⟩
  | .hbm, ⟨4, _⟩ => ⟨S3x150, .f32⟩
  | .hbm, ⟨5, _⟩ => ⟨S150, .f32⟩
  | .hbm, ⟨6, _⟩ => ⟨S150x64, .f32⟩
  | .hbm, ⟨7, _⟩ => ⟨S150x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x3, .f32⟩
  | .hbm, ⟨18, _⟩ => ⟨S_, .f32⟩
  | .hbm, ⟨19, _⟩ => ⟨S100000x3, .f32⟩
  | .hbm, ⟨20, _⟩ => ⟨S1600000x1, .i32⟩
  | .hbm, ⟨21, _⟩ => ⟨S100000x3, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x3, .f32⟩
  | .hbm, ⟨33, _⟩ => ⟨S100000x3, .f32⟩
  | .hbm, ⟨34, _⟩ => ⟨S1x150, .f32⟩
  | .hbm, ⟨35, _⟩ => ⟨S100000x150, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x150, .f32⟩
  | .hbm, ⟨45, _⟩ => ⟨S_, .f32⟩
  | .hbm, ⟨46, _⟩ => ⟨S100000x150, .f32⟩
  | .hbm, ⟨47, _⟩ => ⟨S1600000x1, .i32⟩
  | .hbm, ⟨48, _⟩ => ⟨S100000x150, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x150, .f32⟩
  | .hbm, ⟨60, _⟩ => ⟨S100000x150, .f32⟩
  | .hbm, ⟨61, _⟩ => ⟨S1x64, .f32⟩
  | .hbm, ⟨62, _⟩ => ⟨S100000x64, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x150, .f32⟩
  | .local _ .vmem, ⟨5, _⟩ => ⟨S3x150, .f32⟩
  | .local _ .vmem, ⟨6, _⟩ => ⟨S1x150, .f32⟩
  | .local _ .vmem, ⟨7, _⟩ => ⟨S5000x150, .f32⟩
  | .local _ .vmem, ⟨8, _⟩ => ⟨S5000x150, .f32⟩
  | .local _ .vmem, ⟨9, _⟩ => ⟨S5000x150, .f32⟩
  | .local _ .vmem, ⟨10, _⟩ => ⟨S5000x150, .f32⟩
  | .local _ .vmem, ⟨11, _⟩ => ⟨S5000x150, .f32⟩
  | .local _ .vmem, ⟨12, _⟩ => ⟨S5000x150, .f32⟩
  | .local _ .vmem, ⟨13, _⟩ => ⟨S150x64, .f32⟩
  | .local _ .vmem, ⟨14, _⟩ => ⟨S150x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x150 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x150 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S150x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S150x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  shapeCasts_S150_S1x150 : S150.ShapeCasts S1x150
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  shapeCasts_S5000x3_S5000x3 : S5000x3.ShapeCasts S5000x3
  inb_S3x150_S3x150_0_0 : ∀ a, (![0, 0] : Fin 2 → Nat) a + S3x150.size a ≤ S3x150.size a
  h_S3x150 : 0 < S3x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S5000x150 : S1x150.Broadcasts S5000x150
  inb_S5000x150_S5000x150_0_0 : ∀ a, (![0, 0] : Fin 2 → Nat) a + S5000x150.size a ≤ S5000x150.size a
  h_S5000x150 : 0 < S5000x150.numel
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  shapeCasts_S64_S1x64 : S64.ShapeCasts S1x64
  shapeCasts_S5000x150_S5000x150 : S5000x150.ShapeCasts S5000x150
  inb_S150x64_S150x64_0_0 : ∀ a, (![0, 0] : Fin 2 → Nat) a + S150x64.size a ≤ S150x64.size a
  h_S150x64 : 0 < S150x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S5000x3_S3x150_S5000x150_1_0_0_1_n_n_wf : DotDims.WF S5000x3 S3x150 S5000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S5000x150_S150x64_S5000x64_1_0_0_1_n_n_wf : DotDims.WF S5000x150 S150x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x150.size a ≤ S3x150.size a
  hwx0_2 : ∀ i : grid0.Coords, EltTy.bits .f32 = 32 ∨ (Rect.block (s := S3x150) S3x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x150.size a ≤ S3x150.size a
  hwx0_3 : ∀ i : grid0.Coords, EltTy.bits .f32 = 32 ∨ (Rect.block (s := S3x150) S3x150.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x150.size a ≤ S1x150.size a
  hwx0_4 : ∀ i : grid0.Coords, EltTy.bits .f32 = 32 ∨ (Rect.block (s := S1x150) S1x150.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x150.size a ≤ S100000x150.size a
  hwx0_5 : ∀ i : grid0.Coords, EltTy.bits .f32 = 32 ∨ (Rect.block (s := S100000x150) S5000x150.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x150.size a ≤ S100000x150.size a
  hwx1_0 : ∀ i : grid1.Coords, EltTy.bits .f32 = 32 ∨ (Rect.block (s := S100000x150) S5000x150.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x150.size a ≤ S100000x150.size a
  hwx1_1 : ∀ i : grid1.Coords, EltTy.bits .f32 = 32 ∨ (Rect.block (s := S100000x150) S5000x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S150x64.size a ≤ S150x64.size a
  hwx1_2 : ∀ i : grid1.Coords, EltTy.bits .f32 = 32 ∨ (Rect.block (s := S150x64) S150x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x64.size a ≤ S150x64.size a
  hwx1_3 : ∀ i : grid1.Coords, EltTy.bits .f32 = 32 ∨ (Rect.block (s := S150x64) S150x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x3_S3x150_S5000x150_1_0_0_1_n_n : DotDims S5000x3 S3x150 S5000x150 where
  lhsContracting := [1]
  rhsContracting := [0]
  lhsNonContracting := [0]
  rhsNonContracting := [1]
  lhsBatch := []
  rhsBatch := []
  wf := dot_S5000x3_S3x150_S5000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S5000x150_S150x64_S5000x64_1_0_0_1_n_n : DotDims S5000x150 S150x64 S5000x64 where
  lhsContracting := [1]
  rhsContracting := [0]
  lhsNonContracting := [0]
  rhsNonContracting := [1]
  lhsBatch := []
  rhsBatch := []
  wf := dot_S5000x150_S150x64_S5000x64_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x150.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x150.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x150.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x150.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S150x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S150x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x150 : Shape := ⟨2, ![100000, 150]⟩
abbrev S1x150 : Shape := ⟨2, ![1, 150]⟩
abbrev S1600000x150 : Shape := ⟨2, ![1600000, 150]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S1600000, .i32⟩
  | .hbm, ⟨2, _⟩ => ⟨S1600000, .i32⟩
  | .hbm, ⟨3, _⟩ => ⟨S3x150, .f32⟩
  | .hbm, ⟨4, _⟩ => ⟨S3x150, .f32⟩
  | .hbm, ⟨5, _⟩ => ⟨S150, .f32⟩
  | .hbm, ⟨6, _⟩ => ⟨S150x64, .f32⟩
  | .hbm, ⟨7, _⟩ => ⟨S150x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x3, .f32⟩
  | .hbm, ⟨18, _⟩ => ⟨S_, .f32⟩
  | .hbm, ⟨19, _⟩ => ⟨S100000x3, .f32⟩
  | .hbm, ⟨20, _⟩ => ⟨S1600000x1, .i32⟩
  | .hbm, ⟨21, _⟩ => ⟨S100000x3, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x3, .f32⟩
  | .hbm, ⟨33, _⟩ => ⟨S100000x3, .f32⟩
  | .hbm, ⟨34, _⟩ => ⟨S100000x150, .f32⟩
  | .hbm, ⟨35, _⟩ => ⟨S100000x150, .f32⟩
  | .hbm, ⟨36, _⟩ => ⟨S100000x150, .f32⟩
  | .hbm, ⟨37, _⟩ => ⟨S1x150, .f32⟩
  | .hbm, ⟨38, _⟩ => ⟨S100000x150, .f32⟩
  | .hbm, ⟨39, _⟩ => ⟨S100000x150, .f32⟩
  | .hbm, ⟨40, _⟩ => ⟨S_, .f32⟩
  | .hbm, ⟨41, _⟩ => ⟨S100000x150, .f32⟩
  | .hbm, ⟨42, _⟩ => ⟨S100000x150, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x150, .f32⟩
  | .hbm, ⟨52, _⟩ => ⟨S_, .f32⟩
  | .hbm, ⟨53, _⟩ => ⟨S100000x150, .f32⟩
  | .hbm, ⟨54, _⟩ => ⟨S1600000x1, .i32⟩
  | .hbm, ⟨55, _⟩ => ⟨S100000x150, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x150, .f32⟩
  | .hbm, ⟨67, _⟩ => ⟨S100000x150, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S150_S1x150_1 : S150.BroadcastsInDim S1x150 (![1] : Fin 1 → Fin S1x150.rank)
  bcast_S1x150_S100000x150_0_1 : S1x150.BroadcastsInDim S100000x150 (![0, 1] : Fin 2 → Fin S100000x150.rank)
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x3_S3x150_S100000x150_1_0_0_1_n_n_wf : DotDims.WF S100000x3 S3x150 S100000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S100000x150_S150x64_S100000x64_1_0_0_1_n_n_wf : DotDims.WF S100000x150 S150x64 S100000x64 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x150_S100000x150_1_0_0_1_n_n : DotDims S100000x3 S3x150 S100000x150 where
  lhsContracting := [1]
  rhsContracting := [0]
  lhsNonContracting := [0]
  rhsNonContracting := [1]
  lhsBatch := []
  rhsBatch := []
  wf := dot_S100000x3_S3x150_S100000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S100000x150_S150x64_S100000x64_1_0_0_1_n_n : DotDims S100000x150 S150x64 S100000x64 where
  lhsContracting := [1]
  rhsContracting := [0]
  lhsNonContracting := [0]
  rhsNonContracting := [1]
  lhsBatch := []
  rhsBatch := []
  wf := dot_S100000x150_S150x64_S100000x64_1_0_0_1_n_n_wf

class Facts : Prop extends Facts₀ where

variable [Facts]
-- ==== Proof.KernelRun.lean ====
/-
  The kernel program's whole run, read at every buffer it leaves behind.

  @main is four segments: the host operations that build the first neighbourhood mean, the first dense kernel, the
  host operations that build the second neighbourhood mean from the first kernel's output, the second dense
  kernel. The generated frame module follows the contents of every buffer through these segments as a fold
  (`W0` at launch, `W1` after the first host stretch, `W2` after the first kernel, `W3`, `W4`), and proves each
  segment against it. Here the same launch theorem is applied with the last fold kept in the conclusion: every
  weakly fair execution terminates, faults nowhere, and ends with every unscoped buffer holding `W4`. The result
  buffer is one of them, so the program's result is `W4` read there; the arguments are `W4` read at theirs, which
  the generated module walks back to the launch memory.
-/
import proofs.«182070_j2456721293647_2_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped
    buffer of every core holds the last fold `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run at the result: it ends holding `W4` read at the second kernel's output buffer, and the arguments end as
    launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.Sage.Run

end
-- ==== Proof.BlockPayload.lean ====
/-
  What one grid step of each dense kernel stores, read at an index.

  A grid step holds 5000 consecutive rows of the node features `x` and of the neighbourhood means `a`, both weight
  matrices whole and the bias as a one-row array. Over the extended reals a change of float format is the
  identity, so the stored block's entry (p, q) is

      (∑ₖ x[p,k] · Wself[k,q]  +  ∑ₖ a[p,k] · Wneigh[k,q])  +  b[0,q]

  (clamped below at 0 in layer 1): a matrix product into a zero accumulator is the plain sum over the contracted
  axis, and the one-row bias is read at row 0 whatever `p`.
-/
import proofs.«182070_j2456721293647_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Block

open Cert.KernelIdeal Cert.KernelIdeal.Gen Idealize.ShloMosaic Idealize.ShloMosaic.ValueIdx

/-! ## The 5000×3 by 3×150 product -/

/-- The left operand's row coordinate is the output's row. -/
theorem mm1_lhs_row (i : S5000x150.Idx) (q : dot_S5000x3_S3x150_S5000x150_1_0_0_1_n_n.contr.Idx) :
    (dot_S5000x3_S3x150_S5000x150_1_0_0_1_n_n.lhsIdx i q 0).val = (i 0).val := by
  unfold DotDims.lhsIdx
  rw [dif_neg (show ¬(0 : Fin S5000x3.rank) ∈ dot_S5000x3_S3x150_S5000x150_1_0_0_1_n_n.lhsBatch by decide), dif_pos (show (0 : Fin S5000x3.rank) ∈ dot_S5000x3_S3x150_S5000x150_1_0_0_1_n_n.lhsNonContracting by decide)]
  rfl
/-- The right operand's column coordinate is the output's column. -/
theorem mm1_rhs_col (i : S5000x150.Idx) (q : dot_S5000x3_S3x150_S5000x150_1_0_0_1_n_n.contr.Idx) :
    (dot_S5000x3_S3x150_S5000x150_1_0_0_1_n_n.rhsIdx i q 1).val = (i 1).val := by
  unfold DotDims.rhsIdx
  rw [dif_neg (show ¬(1 : Fin S3x150.rank) ∈ dot_S5000x3_S3x150_S5000x150_1_0_0_1_n_n.rhsBatch by decide), dif_pos (show (1 : Fin S3x150.rank) ∈ dot_S5000x3_S3x150_S5000x150_1_0_0_1_n_n.rhsNonContracting by decide)]
  rfl

/-- A block's matrix product into a zero accumulator: entry (p, q) is the sum over the contracted axis of
    `l[p,k] · r[k,q]`. -/
theorem mm1_apply (l : FVec Ideal S5000x3 .bf16) (r : FVec Ideal S3x150 .bf16) (p : Fin 5000) (q : Fin 150) :
    matmul dot_S5000x3_S3x150_S5000x150_1_0_0_1_n_n none l r (constant (F := Ideal) S5000x150 .f32 0x00000000#32) (ix2 p q)
      = ∑ k : Fin 3, l (ix2 p k) * r (ix2 k q) := by
  show FloatOps.matmul dot_S5000x3_S3x150_S5000x150_1_0_0_1_n_n none l r (constant (F := Ideal) S5000x150 .f32 0x00000000#32) (ix2 p q) = _
  rw [Ideal.matmul_constant_zero_apply, ← Equiv.sum_comp (contrEquiv1 dot_S5000x3_S3x150_S5000x150_1_0_0_1_n_n 3 rfl rfl).symm]
  refine Finset.sum_congr rfl fun k _ => ?_
  have hk := contrEquiv1_symm_val dot_S5000x3_S3x150_S5000x150_1_0_0_1_n_n 3 rfl rfl k
  have el : dot_S5000x3_S3x150_S5000x150_1_0_0_1_n_n.lhsIdx (ix2 p q) ((contrEquiv1 dot_S5000x3_S3x150_S5000x150_1_0_0_1_n_n 3 rfl rfl).symm k) = ix2 p k := funext fun a => Fin.ext (by
    match a with
    | ⟨0, _⟩ => exact mm1_lhs_row _ _
    | ⟨1, _⟩ => exact (dot_S5000x3_S3x150_S5000x150_1_0_0_1_n_n.lhsIdx_val_of_single rfl _ _).trans hk)
  have er : dot_S5000x3_S3x150_S5000x150_1_0_0_1_n_n.rhsIdx (ix2 p q) ((contrEquiv1 dot_S5000x3_S3x150_S5000x150_1_0_0_1_n_n 3 rfl rfl).symm k) = ix2 k q := funext fun a => Fin.ext (by
    match a with
    | ⟨0, _⟩ => exact (dot_S5000x3_S3x150_S5000x150_1_0_0_1_n_n.rhsIdx_val_of_single rfl _ _).trans hk
    | ⟨1, _⟩ => exact mm1_rhs_col _ _)
  rw [el, er]

/-! ## The 5000×150 by 150×64 product -/

/-- The left operand's row coordinate is the output's row. -/
theorem mm2_lhs_row (i : S5000x64.Idx) (q : dot_S5000x150_S150x64_S5000x64_1_0_0_1_n_n.contr.Idx) :
    (dot_S5000x150_S150x64_S5000x64_1_0_0_1_n_n.lhsIdx i q 0).val = (i 0).val := by
  unfold DotDims.lhsIdx
  rw [dif_neg (show ¬(0 : Fin S5000x150.rank) ∈ dot_S5000x150_S150x64_S5000x64_1_0_0_1_n_n.lhsBatch by decide), dif_pos (show (0 : Fin S5000x150.rank) ∈ dot_S5000x150_S150x64_S5000x64_1_0_0_1_n_n.lhsNonContracting by decide)]
  rfl
/-- The right operand's column coordinate is the output's column. -/
theorem mm2_rhs_col (i : S5000x64.Idx) (q : dot_S5000x150_S150x64_S5000x64_1_0_0_1_n_n.contr.Idx) :
    (dot_S5000x150_S150x64_S5000x64_1_0_0_1_n_n.rhsIdx i q 1).val = (i 1).val := by
  unfold DotDims.rhsIdx
  rw [dif_neg (show ¬(1 : Fin S150x64.rank) ∈ dot_S5000x150_S150x64_S5000x64_1_0_0_1_n_n.rhsBatch by decide), dif_pos (show (1 : Fin S150x64.rank) ∈ dot_S5000x150_S150x64_S5000x64_1_0_0_1_n_n.rhsNonContracting by decide)]
  rfl

/-- A block's matrix product into a zero accumulator: entry (p, q) is the sum over the contracted axis of
    `l[p,k] · r[k,q]`. -/
theorem mm2_apply (l : FVec Ideal S5000x150 .bf16) (r : FVec Ideal S150x64 .bf16) (p : Fin 5000) (q : Fin 64) :
    matmul dot_S5000x150_S150x64_S5000x64_1_0_0_1_n_n none l r (constant (F := Ideal) S5000x64 .f32 0x00000000#32) (ix2 p q)
      = ∑ k : Fin 150, l (ix2 p k) * r (ix2 k q) := by
  show FloatOps.matmul dot_S5000x150_S150x64_S5000x64_1_0_0_1_n_n none l r (constant (F := Ideal) S5000x64 .f32 0x00000000#32) (ix2 p q) = _
  rw [Ideal.matmul_constant_zero_apply, ← Equiv.sum_comp (contrEquiv1 dot_S5000x150_S150x64_S5000x64_1_0_0_1_n_n 150 rfl rfl).symm]
  refine Finset.sum_congr rfl fun k _ => ?_
  have hk := contrEquiv1_symm_val dot_S5000x150_S150x64_S5000x64_1_0_0_1_n_n 150 rfl rfl k
  have el : dot_S5000x150_S150x64_S5000x64_1_0_0_1_n_n.lhsIdx (ix2 p q) ((contrEquiv1 dot_S5000x150_S150x64_S5000x64_1_0_0_1_n_n 150 rfl rfl).symm k) = ix2 p k := funext fun a => Fin.ext (by
    match a with
    | ⟨0, _⟩ => exact mm2_lhs_row _ _
    | ⟨1, _⟩ => exact (dot_S5000x150_S150x64_S5000x64_1_0_0_1_n_n.lhsIdx_val_of_single rfl _ _).trans hk)
  have er : dot_S5000x150_S150x64_S5000x64_1_0_0_1_n_n.rhsIdx (ix2 p q) ((contrEquiv1 dot_S5000x150_S150x64_S5000x64_1_0_0_1_n_n 150 rfl rfl).symm k) = ix2 k q := funext fun a => Fin.ext (by
    match a with
    | ⟨0, _⟩ => exact (dot_S5000x150_S150x64_S5000x64_1_0_0_1_n_n.rhsIdx_val_of_single rfl _ _).trans hk
    | ⟨1, _⟩ => exact mm2_rhs_col _ _)
  rw [el, er]

/-! ## Layer 1's stored block -/

/-- Entry (p, q) of what a grid step of layer 1 stores, from the blocks it loaded. -/
theorem pay1_apply (x0 x1 : Vec Ideal S5000x3 .f32) (x2 x3 : Vec Ideal S3x150 .f32) (x4 : Vec Ideal S1x150 .f32)
    (p : Fin 5000) (q : Fin 150) :
    k0_pay1 x0 x1 x2 x3 x4 (ix2 p q)
      = max (((∑ k : Fin 3, x0 (ix2 p k) * x2 (ix2 k q)) + ∑ k : Fin 3, x1 (ix2 p k) * x3 (ix2 k q))
          + x4 (ix2 (0 : Fin 1) q)) 0 := by
  unfold k0_pay1
  simp only [maximumf_apply, addf_apply, broadcast_apply]
  rw [mm1_apply, mm1_apply, broadcastTo_1b_ab_apply, shapeCast_self, shapeCast_self]
  simp only [truncf_apply]
  exact congrArg (max _) Ideal.ofBits_zero_f32

/-! ## Layer 2's stored block -/

/-- Entry (p, q) of what a grid step of layer 2 stores, from the blocks it loaded. -/
theorem pay2_apply (x0 x1 : Vec Ideal S5000x150 .f32) (x2 x3 : Vec Ideal S150x64 .f32) (x4 : Vec Ideal S1x64 .f32)
    (p : Fin 5000) (q : Fin 64) :
    k1_pay1 x0 x1 x2 x3 x4 (ix2 p q)
      = ((∑ k : Fin 150, x0 (ix2 p k) * x2 (ix2 k q)) + ∑ k : Fin 150, x1 (ix2 p k) * x3 (ix2 k q))
          + x4 (ix2 (0 : Fin 1) q) := by
  unfold k1_pay1
  simp only [addf_apply]
  rw [mm2_apply, mm2_apply, broadcastTo_1b_ab_apply, shapeCast_self, shapeCast_self, shapeCast_self]
  simp only [truncf_apply]

end Cert.Sage.Block

end
-- ==== Proof.DenseSpec.lean ====
/-
  The dense half of one graph-convolution layer, as ONE function of whole arrays over the extended reals.

  For node features `x` (one row per node), neighbourhood means `a` (same shape), two weight matrices and a bias
  row `b`, the layer's pre-activation at node `n`, output feature `j` is

      (∑ₖ x[n,k] · Wself[k,j]  +  ∑ₖ a[n,k] · Wneigh[k,j])  +  b[j],

  in exactly this grouping: the two inner products are added first and the bias last. Layer 1 (3 input features,
  150 output features) clamps the result below at 0; layer 2 (150 input features, 64 output features) does not.
  Nothing here needs a finite operand: the two programs this certificate compares compute these same sums in the
  same grouping, so no term is ever moved across an addition.
-/
import Idealize.ShloMosaic.PureOps.Ideal
import Idealize.ShloMosaic.Lib.ValueIdx

noncomputable section

namespace Cert.Sage

open Idealize.ShloMosaic Idealize.ShloMosaic.ValueIdx

/-- Layer 1 before the clamp: 100000 nodes, 3 input features, 150 output features. -/
def affine1 (x a : (⟨2, ![100000, 3]⟩ : Shape).Idx → EReal) (ws wn : (⟨2, ![3, 150]⟩ : Shape).Idx → EReal)
    (b : Fin 150 → EReal) : (⟨2, ![100000, 150]⟩ : Shape).Idx → EReal := fun i =>
  ((∑ k : Fin 3, x (ix2 (⟨(i 0).val, (i 0).isLt⟩ : Fin 100000) k) * ws (ix2 k (⟨(i 1).val, (i 1).isLt⟩ : Fin 150)))
    + ∑ k : Fin 3, a (ix2 (⟨(i 0).val, (i 0).isLt⟩ : Fin 100000) k) * wn (ix2 k (⟨(i 1).val, (i 1).isLt⟩ : Fin 150)))
    + b ⟨(i 1).val, (i 1).isLt⟩

/-- Layer 1: the pre-activation clamped below at 0. -/
def layer1 (x a : (⟨2, ![100000, 3]⟩ : Shape).Idx → EReal) (ws wn : (⟨2, ![3, 150]⟩ : Shape).Idx → EReal)
    (b : Fin 150 → EReal) : (⟨2, ![100000, 150]⟩ : Shape).Idx → EReal := fun i =>
  max (affine1 x a ws wn b i) 0

/-- Layer 2 (no clamp): 100000 nodes, 150 input features, 64 output features. -/
def layer2 (x a : (⟨2, ![100000, 150]⟩ : Shape).Idx → EReal) (ws wn : (⟨2, ![150, 64]⟩ : Shape).Idx → EReal)
    (b : Fin 64 → EReal) : (⟨2, ![100000, 64]⟩ : Shape).Idx → EReal := fun i =>
  ((∑ k : Fin 150, x (ix2 (⟨(i 0).val, (i 0).isLt⟩ : Fin 100000) k) * ws (ix2 k (⟨(i 1).val, (i 1).isLt⟩ : Fin 64)))
    + ∑ k : Fin 150, a (ix2 (⟨(i 0).val, (i 0).isLt⟩ : Fin 100000) k) * wn (ix2 k (⟨(i 1).val, (i 1).isLt⟩ : Fin 64)))
    + b ⟨(i 1).val, (i 1).isLt⟩

end Cert.Sage

end
-- ==== Proof.RegionValue.lean ====
/-
  Each dense kernel's output array after its 20 grid steps, as one function of the arrays the region finds.

  Grid step `t` reads rows 5000·t … 5000·t + 4999 of the node features and of the neighbourhood means, the two
  weight matrices and the one-row bias whole, and writes rows 5000·t … 5000·t + 4999 of the output. Row `r` of
  the output is therefore written by step `r / 5000`, exactly once, and what is written there is the layer's
  value at row `r`: the 20 blocks are the restrictions of one whole-array function, and they cover the array.
  Everything is stated at an arbitrary contents `V` of the buffers at the region's entry.
-/
import proofs.«182070_j2456721293647_2_alg».proof.Proof.Gen.KernelIdeal.Frame
import proofs.«182070_j2456721293647_2_alg».proof.Proof.BlockPayload
import proofs.«182070_j2456721293647_2_alg».proof.Proof.DenseSpec
import Idealize.ShloMosaic.Lib.Pipeline.Value

set_option maxRecDepth 16384

noncomputable section

namespace Cert.Sage.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem h0_all : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 :=
  (by decide +kernel : ∀ t : Fin grid0.N, _)

/-! # Layer 1 (region 0) -/

/-- Where each window's block sits at grid step `t`: the row-blocked windows at block row `t`, the whole-array
    windows at block (0, 0); decided over the 20 steps. -/
structure Steps0 (t : Fin cfg0.N) : Prop where
  r0 : win0_0.index t 0 = t.val
  c0 : win0_0.index t 1 = 0
  r1 : win0_1.index t 0 = t.val
  c1 : win0_1.index t 1 = 0
  r2 : win0_2.index t 0 = 0
  c2 : win0_2.index t 1 = 0
  r3 : win0_3.index t 0 = 0
  c3 : win0_3.index t 1 = 0
  r4 : win0_4.index t 0 = 0
  c4 : win0_4.index t 1 = 0
  r5 : win0_5.index t 0 = t.val
  c5 : win0_5.index t 1 = 0

theorem steps0 : ∀ t : Fin cfg0.N, Steps0 t :=
  fun t => ⟨(h0_all t).1, (h0_all t).2.1, (h0_all t).2.2.1, (h0_all t).2.2.2.1, (h0_all t).2.2.2.2.1, (h0_all t).2.2.2.2.2.1,
    (h0_all t).2.2.2.2.2.2.1, (h0_all t).2.2.2.2.2.2.2.1, (h0_all t).2.2.2.2.2.2.2.2.1, (h0_all t).2.2.2.2.2.2.2.2.2.1,
    (h0_all t).2.2.2.2.2.2.2.2.2.2.1, (h0_all t).2.2.2.2.2.2.2.2.2.2.2⟩

/-- Window 0's block at step `t` is rows 5000·t … 5000·t + 4999 of its array. -/
theorem blk0_0_apply (c : Dev nD) (t : Fin cfg0.N) (y : S5000x3.Idx) (k : S100000x3.Idx)
    (hk0 : (k 0).val = 5000 * t.val + (y 0).val) (hk1 : (k 1).val = (y 1).val) :
    (iblk0 V c 0 t : Vec Ideal S5000x3 .f32) y = (V c main_arg0 : S100000x3.Idx → EReal) k := by
  have hi := steps0 t
  unfold iblk0
  rw [View.read_apply]
  show (V c main_arg0 : S100000x3.Idx → EReal) _ = _
  refine congrArg (V c main_arg0 : S100000x3.Idx → EReal) (funext fun a => Fin.ext ?_)
  match a with
  | ⟨0, _⟩ => show win0_0.index t 0 * 5000 + 1 * (y 0).val = (k 0).val; rw [hi.r0, hk0]; omega
  | ⟨1, _⟩ => show win0_0.index t 1 * 3 + 1 * (y 1).val = (k 1).val; rw [hi.c0, hk1]; omega

/-- Window 1's block at step `t` is rows 5000·t … 5000·t + 4999 of its array. -/
theorem blk0_1_apply (c : Dev nD) (t : Fin cfg0.N) (y : S5000x3.Idx) (k : S100000x3.Idx)
    (hk0 : (k 0).val = 5000 * t.val + (y 0).val) (hk1 : (k 1).val = (y 1).val) :
    (iblk0 V c 1 t : Vec Ideal S5000x3 .f32) y = (V c main_v18 : S100000x3.Idx → EReal) k := by
  have hi := steps0 t
  unfold iblk0
  rw [View.read_apply]
  show (V c main_v18 : S100000x3.Idx → EReal) _ = _
  refine congrArg (V c main_v18 : S100000x3.Idx → EReal) (funext fun a => Fin.ext ?_)
  match a with
  | ⟨0, _⟩ => show win0_1.index t 0 * 5000 + 1 * (y 0).val = (k 0).val; rw [hi.r1, hk0]; omega
  | ⟨1, _⟩ => show win0_1.index t 1 * 3 + 1 * (y 1).val = (k 1).val; rw [hi.c1, hk1]; omega

/-- Window 2's block at every step is its whole array. -/
theorem blk0_2_apply (c : Dev nD) (t : Fin cfg0.N) (y : S3x150.Idx) :
    (iblk0 V c 2 t : Vec Ideal S3x150 .f32) y = (V c main_arg3 : S3x150.Idx → EReal) y := by
  have hi := steps0 t
  unfold iblk0
  rw [View.read_apply]
  show (V c main_arg3 : S3x150.Idx → EReal) _ = _
  refine congrArg (V c main_arg3 : S3x150.Idx → EReal) (funext fun a => Fin.ext ?_)
  match a with
  | ⟨0, _⟩ => show win0_2.index t 0 * 3 + 1 * (y 0).val = (y 0).val; rw [hi.r2]; omega
  | ⟨1, _⟩ => show win0_2.index t 1 * 150 + 1 * (y 1).val = (y 1).val; rw [hi.c2]; omega

/-- Window 3's block at every step is its whole array. -/
theorem blk0_3_apply (c : Dev nD) (t : Fin cfg0.N) (y : S3x150.Idx) :
    (iblk0 V c 3 t : Vec Ideal S3x150 .f32) y = (V c main_arg4 : S3x150.Idx → EReal) y := by
  have hi := steps0 t
  unfold iblk0
  rw [View.read_apply]
  show (V c main_arg4 : S3x150.Idx → EReal) _ = _
  refine congrArg (V c main_arg4 : S3x150.Idx → EReal) (funext fun a => Fin.ext ?_)
  match a with
  | ⟨0, _⟩ => show win0_3.index t 0 * 3 + 1 * (y 0).val = (y 0).val; rw [hi.r3]; omega
  | ⟨1, _⟩ => show win0_3.index t 1 * 150 + 1 * (y 1).val = (y 1).val; rw [hi.c3]; omega

/-- Window 4's block at every step is its whole array. -/
theorem blk0_4_apply (c : Dev nD) (t : Fin cfg0.N) (y : S1x150.Idx) :
    (iblk0 V c 4 t : Vec Ideal S1x150 .f32) y = (V c main_v19 : S1x150.Idx → EReal) y := by
  have hi := steps0 t
  unfold iblk0
  rw [View.read_apply]
  show (V c main_v19 : S1x150.Idx → EReal) _ = _
  refine congrArg (V c main_v19 : S1x150.Idx → EReal) (funext fun a => Fin.ext ?_)
  match a with
  | ⟨0, _⟩ => show win0_4.index t 0 * 1 + 1 * (y 0).val = (y 0).val; rw [hi.r4]; omega
  | ⟨1, _⟩ => show win0_4.index t 1 * 150 + 1 * (y 1).val = (y 1).val; rw [hi.c4]; omega

/-- The layer's value from the arrays the region finds; the bias is row 0 of its one-row array. -/
def out0 (c : Dev nD) : S100000x150.Idx → EReal :=
  Cert.Sage.layer1 (V c main_arg0) (V c main_v18) (V c main_arg3) (V c main_arg4) (fun q => (V c main_v19 : S1x150.Idx → EReal) (ix2 (0 : Fin 1) q))

/-- A stored block is the layer's value on the block's rows: for loaded blocks that are rows 5000·t … of `X` and
    `A` and the whole of `WS`, `WN`, `B`, the entry at block index `j` is the layer's entry at row
    5000·t + j₀, column j₁. -/
theorem block0_spec (x0 x1 : Vec Ideal S5000x3 .f32) (x2 x3 : Vec Ideal S3x150 .f32) (x4 : Vec Ideal S1x150 .f32)
    (X A : S100000x3.Idx → EReal) (WS WN : S3x150.Idx → EReal) (B : S1x150.Idx → EReal) (t : ℕ) (ht : t < 20)
    (h0 : ∀ (p : Fin 5000) (k : Fin 3), x0 (ix2 p k) = X (ix2 (⟨5000 * t + p.val, by omega⟩ : Fin 100000) k))
    (h1 : ∀ (p : Fin 5000) (k : Fin 3), x1 (ix2 p k) = A (ix2 (⟨5000 * t + p.val, by omega⟩ : Fin 100000) k))
    (h2 : ∀ y, x2 y = WS y) (h3 : ∀ y, x3 y = WN y) (h4 : ∀ y, x4 y = B y)
    (j : S5000x150.Idx) (i : S100000x150.Idx) (hi0 : (i 0).val = 5000 * t + (j 0).val) (hi1 : (i 1).val = (j 1).val) :
    k0_pay1 x0 x1 x2 x3 x4 j = Cert.Sage.layer1 X A WS WN (fun q => B (ix2 (0 : Fin 1) q)) i := by
  obtain ⟨p, q, rfl⟩ : ∃ (p : Fin 5000) (q : Fin 150), j = ix2 p q := ⟨j 0, j 1, eq_ix2 j⟩
  obtain rfl : x2 = WS := funext h2
  obtain rfl : x3 = WN := funext h3
  obtain rfl : x4 = B := funext h4
  have hp : (⟨(i 0).val, (i 0).isLt⟩ : Fin 100000) = ⟨5000 * t + p.val, by have := p.isLt; omega⟩ := Fin.ext hi0
  have hq : (⟨(i 1).val, (i 1).isLt⟩ : Fin 150) = q := Fin.ext hi1
  rw [Cert.Sage.Block.pay1_apply]
  unfold Cert.Sage.layer1 Cert.Sage.affine1
  simp only [hp, hq, h0, h1]

/-- WHAT STEP `t` WRITES BACK is block `t` of the layer's value. -/
theorem flushed0_eq (c : Dev nD) (t : Fin cfg0.N) :
    (dat0 V c).flushed 5 t = ((cfg0.win 5).blk t).view.read (Elt Ideal) (out0 V c) := by
  have hi := steps0 t
  have hN : t.val < 20 := lt_of_lt_of_eq t.isLt N_0
  show (cfg0.win 5).cut (grid0.coords t) ((dat0 V c).after 5 t) = _
  rw [after0_5]
  unfold out0_5
  rw [View.canon_unit_zero zero_offsets]
  simp only [View.ld_unit_zero (S := S5000x3) zero_offsets, View.ld_unit_zero (S := S3x150) zero_offsets, View.ld_unit_zero (S := S1x150) zero_offsets]
  funext j
  rw [View.read_apply]
  refine block0_spec (iblk0 V c 0 t) (iblk0 V c 1 t) (iblk0 V c 2 t) (iblk0 V c 3 t) (iblk0 V c 4 t)
    (V c main_arg0) (V c main_v18) (V c main_arg3) (V c main_arg4) (V c main_v19) t.val hN
    (fun p k => blk0_0_apply V c t _ _ rfl rfl) (fun p k => blk0_1_apply V c t _ _ rfl rfl)
    (blk0_2_apply V c t) (blk0_3_apply V c t) (blk0_4_apply V c t) j _ ?_ ?_
  · show win0_5.index t 0 * 5000 + 1 * (j 0).val = 5000 * t.val + (j 0).val; rw [hi.r5]; omega
  · show win0_5.index t 1 * 150 + 1 * (j 1).val = (j 1).val; rw [hi.c5]; omega

/-- THE ARRAY after the region: the layer's value everywhere — row `r` lies in step `r / 5000`'s block. -/
theorem final0 (c : Dev nD) : (dat0 V c).arrAt 5 cfg0.N = out0 V c :=
  (dat0 V c).arrAt_eq_of_cover 5 (out0 V c) (fun t _ => flushed0_eq V c t) fun i => by
    have h0 : (i 0).val < 100000 := (i 0).isLt
    have h1 : (i 1).val < 150 := (i 1).isLt
    have hN : cfg0.N = 20 := N_0
    have hlt : (i 0).val / 5000 < cfg0.N := by rw [hN]; omega
    refine ⟨⟨(i 0).val / 5000, hlt⟩, flush0_5 _, ?_⟩
    have hi := steps0 ⟨(i 0).val / 5000, hlt⟩
    show i ∈ ((View.whole main_v20).slice (win0_5.rect ⟨(i 0).val / 5000, hlt⟩)).set
    rw [View.set_slice_whole, Rect.mem_set_unit]
    intro a
    match a with
    | ⟨0, _⟩ =>
      show win0_5.index ⟨(i 0).val / 5000, hlt⟩ 0 * 5000 ≤ (i 0).val ∧ (i 0).val < win0_5.index ⟨(i 0).val / 5000, hlt⟩ 0 * 5000 + 5000
      rw [hi.r5]; show (i 0).val / 5000 * 5000 ≤ (i 0).val ∧ (i 0).val < (i 0).val / 5000 * 5000 + 5000; omega
    | ⟨1, _⟩ =>
      show win0_5.index ⟨(i 0).val / 5000, hlt⟩ 1 * 150 ≤ (i 1).val ∧ (i 1).val < win0_5.index ⟨(i 0).val / 5000, hlt⟩ 1 * 150 + 150
      rw [hi.c5]; omega

theorem h1_all : ∀ t : Fin cfg1.N,
    win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, _)

/-! # Layer 2 (region 1) -/

/-- Where each window's block sits at grid step `t`: the row-blocked windows at block row `t`, the whole-array
    windows at block (0, 0); decided over the 20 steps. -/
structure Steps1 (t : Fin cfg1.N) : Prop where
  r0 : win1_0.index t 0 = t.val
  c0 : win1_0.index t 1 = 0
  r1 : win1_1.index t 0 = t.val
  c1 : win1_1.index t 1 = 0
  r2 : win1_2.index t 0 = 0
  c2 : win1_2.index t 1 = 0
  r3 : win1_3.index t 0 = 0
  c3 : win1_3.index t 1 = 0
  r4 : win1_4.index t 0 = 0
  c4 : win1_4.index t 1 = 0
  r5 : win1_5.index t 0 = t.val
  c5 : win1_5.index t 1 = 0

theorem steps1 : ∀ t : Fin cfg1.N, Steps1 t :=
  fun t => ⟨(h1_all t).1, (h1_all t).2.1, (h1_all t).2.2.1, (h1_all t).2.2.2.1, (h1_all t).2.2.2.2.1, (h1_all t).2.2.2.2.2.1,
    (h1_all t).2.2.2.2.2.2.1, (h1_all t).2.2.2.2.2.2.2.1, (h1_all t).2.2.2.2.2.2.2.2.1, (h1_all t).2.2.2.2.2.2.2.2.2.1,
    (h1_all t).2.2.2.2.2.2.2.2.2.2.1, (h1_all t).2.2.2.2.2.2.2.2.2.2.2⟩

/-- Window 0's block at step `t` is rows 5000·t … 5000·t + 4999 of its array. -/
theorem blk1_0_apply (c : Dev nD) (t : Fin cfg1.N) (y : S5000x150.Idx) (k : S100000x150.Idx)
    (hk0 : (k 0).val = 5000 * t.val + (y 0).val) (hk1 : (k 1).val = (y 1).val) :
    (iblk1 V c 0 t : Vec Ideal S5000x150 .f32) y = (V c main_v20 : S100000x150.Idx → EReal) k := by
  have hi := steps1 t
  unfold iblk1
  rw [View.read_apply]
  show (V c main_v20 : S100000x150.Idx → EReal) _ = _
  refine congrArg (V c main_v20 : S100000x150.Idx → EReal) (funext fun a => Fin.ext ?_)
  match a with
  | ⟨0, _⟩ => show win1_0.index t 0 * 5000 + 1 * (y 0).val = (k 0).val; rw [hi.r0, hk0]; omega
  | ⟨1, _⟩ => show win1_0.index t 1 * 150 + 1 * (y 1).val = (k 1).val; rw [hi.c0, hk1]; omega

/-- Window 1's block at step `t` is rows 5000·t … 5000·t + 4999 of its array. -/
theorem blk1_1_apply (c : Dev nD) (t : Fin cfg1.N) (y : S5000x150.Idx) (k : S100000x150.Idx)
    (hk0 : (k 0).val = 5000 * t.val + (y 0).val) (hk1 : (k 1).val = (y 1).val) :
    (iblk1 V c 1 t : Vec Ideal S5000x150 .f32) y = (V c main_v39 : S100000x150.Idx → EReal) k := by
  have hi := steps1 t
  unfold iblk1
  rw [View.read_apply]
  show (V c main_v39 : S100000x150.Idx → EReal) _ = _
  refine congrArg (V c main_v39 : S100000x150.Idx → EReal) (funext fun a => Fin.ext ?_)
  match a with
  | ⟨0, _⟩ => show win1_1.index t 0 * 5000 + 1 * (y 0).val = (k 0).val; rw [hi.r1, hk0]; omega
  | ⟨1, _⟩ => show win1_1.index t 1 * 150 + 1 * (y 1).val = (k 1).val; rw [hi.c1, hk1]; omega

/-- Window 2's block at every step is its whole array. -/
theorem blk1_2_apply (c : Dev nD) (t : Fin cfg1.N) (y : S150x64.Idx) :
    (iblk1 V c 2 t : Vec Ideal S150x64 .f32) y = (V c main_arg6 : S150x64.Idx → EReal) y := by
  have hi := steps1 t
  unfold iblk1
  rw [View.read_apply]
  show (V c main_arg6 : S150x64.Idx → EReal) _ = _
  refine congrArg (V c main_arg6 : S150x64.Idx → EReal) (funext fun a => Fin.ext ?_)
  match a with
  | ⟨0, _⟩ => show win1_2.index t 0 * 150 + 1 * (y 0).val = (y 0).val; rw [hi.r2]; omega
  | ⟨1, _⟩ => show win1_2.index t 1 * 64 + 1 * (y 1).val = (y 1).val; rw [hi.c2]; omega

/-- Window 3's block at every step is its whole array. -/
theorem blk1_3_apply (c : Dev nD) (t : Fin cfg1.N) (y : S150x64.Idx) :
    (iblk1 V c 3 t : Vec Ideal S150x64 .f32) y = (V c main_arg7 : S150x64.Idx → EReal) y := by
  have hi := steps1 t
  unfold iblk1
  rw [View.read_apply]
  show (V c main_arg7 : S150x64.Idx → EReal) _ = _
  refine congrArg (V c main_arg7 : S150x64.Idx → EReal) (funext fun a => Fin.ext ?_)
  match a with
  | ⟨0, _⟩ => show win1_3.index t 0 * 150 + 1 * (y 0).val = (y 0).val; rw [hi.r3]; omega
  | ⟨1, _⟩ => show win1_3.index t 1 * 64 + 1 * (y 1).val = (y 1).val; rw [hi.c3]; omega

/-- Window 4's block at every step is its whole array. -/
theorem blk1_4_apply (c : Dev nD) (t : Fin cfg1.N) (y : S1x64.Idx) :
    (iblk1 V c 4 t : Vec Ideal S1x64 .f32) y = (V c main_v40 : S1x64.Idx → EReal) y := by
  have hi := steps1 t
  unfold iblk1
  rw [View.read_apply]
  show (V c main_v40 : S1x64.Idx → EReal) _ = _
  refine congrArg (V c main_v40 : S1x64.Idx → EReal) (funext fun a => Fin.ext ?_)
  match a with
  | ⟨0, _⟩ => show win1_4.index t 0 * 1 + 1 * (y 0).val = (y 0).val; rw [hi.r4]; omega
  | ⟨1, _⟩ => show win1_4.index t 1 * 64 + 1 * (y 1).val = (y 1).val; rw [hi.c4]; omega

/-- The layer's value from the arrays the region finds; the bias is row 0 of its one-row array. -/
def out1 (c : Dev nD) : S100000x64.Idx → EReal :=
  Cert.Sage.layer2 (V c main_v20) (V c main_v39) (V c main_arg6) (V c main_arg7) (fun q => (V c main_v40 : S1x64.Idx → EReal) (ix2 (0 : Fin 1) q))

/-- A stored block is the layer's value on the block's rows: for loaded blocks that are rows 5000·t … of `X` and
    `A` and the whole of `WS`, `WN`, `B`, the entry at block index `j` is the layer's entry at row
    5000·t + j₀, column j₁. -/
theorem block1_spec (x0 x1 : Vec Ideal S5000x150 .f32) (x2 x3 : Vec Ideal S150x64 .f32) (x4 : Vec Ideal S1x64 .f32)
    (X A : S100000x150.Idx → EReal) (WS WN : S150x64.Idx → EReal) (B : S1x64.Idx → EReal) (t : ℕ) (ht : t < 20)
    (h0 : ∀ (p : Fin 5000) (k : Fin 150), x0 (ix2 p k) = X (ix2 (⟨5000 * t + p.val, by omega⟩ : Fin 100000) k))
    (h1 : ∀ (p : Fin 5000) (k : Fin 150), x1 (ix2 p k) = A (ix2 (⟨5000 * t + p.val, by omega⟩ : Fin 100000) k))
    (h2 : ∀ y, x2 y = WS y) (h3 : ∀ y, x3 y = WN y) (h4 : ∀ y, x4 y = B y)
    (j : S5000x64.Idx) (i : S100000x64.Idx) (hi0 : (i 0).val = 5000 * t + (j 0).val) (hi1 : (i 1).val = (j 1).val) :
    k1_pay1 x0 x1 x2 x3 x4 j = Cert.Sage.layer2 X A WS WN (fun q => B (ix2 (0 : Fin 1) q)) i := by
  obtain ⟨p, q, rfl⟩ : ∃ (p : Fin 5000) (q : Fin 64), j = ix2 p q := ⟨j 0, j 1, eq_ix2 j⟩
  obtain rfl : x2 = WS := funext h2
  obtain rfl : x3 = WN := funext h3
  obtain rfl : x4 = B := funext h4
  have hp : (⟨(i 0).val, (i 0).isLt⟩ : Fin 100000) = ⟨5000 * t + p.val, by have := p.isLt; omega⟩ := Fin.ext hi0
  have hq : (⟨(i 1).val, (i 1).isLt⟩ : Fin 64) = q := Fin.ext hi1
  rw [Cert.Sage.Block.pay2_apply]
  unfold Cert.Sage.layer2
  simp only [hp, hq, h0, h1]

/-- WHAT STEP `t` WRITES BACK is block `t` of the layer's value. -/
theorem flushed1_eq (c : Dev nD) (t : Fin cfg1.N) :
    (dat1 V c).flushed 5 t = ((cfg1.win 5).blk t).view.read (Elt Ideal) (out1 V c) := by
  have hi := steps1 t
  have hN : t.val < 20 := lt_of_lt_of_eq t.isLt N_1
  show (cfg1.win 5).cut (grid1.coords t) ((dat1 V c).after 5 t) = _
  rw [after1_5]
  unfold out1_5
  rw [View.canon_unit_zero zero_offsets]
  simp only [View.ld_unit_zero (S := S5000x150) zero_offsets, View.ld_unit_zero (S := S150x64) zero_offsets, View.ld_unit_zero (S := S1x64) zero_offsets]
  funext j
  rw [View.read_apply]
  refine block1_spec (iblk1 V c 0 t) (iblk1 V c 1 t) (iblk1 V c 2 t) (iblk1 V c 3 t) (iblk1 V c 4 t)
    (V c main_v20) (V c main_v39) (V c main_arg6) (V c main_arg7) (V c main_v40) t.val hN
    (fun p k => blk1_0_apply V c t _ _ rfl rfl) (fun p k => blk1_1_apply V c t _ _ rfl rfl)
    (blk1_2_apply V c t) (blk1_3_apply V c t) (blk1_4_apply V c t) j _ ?_ ?_
  · show win1_5.index t 0 * 5000 + 1 * (j 0).val = 5000 * t.val + (j 0).val; rw [hi.r5]; omega
  · show win1_5.index t 1 * 64 + 1 * (j 1).val = (j 1).val; rw [hi.c5]; omega

/-- THE ARRAY after the region: the layer's value everywhere — row `r` lies in step `r / 5000`'s block. -/
theorem final1 (c : Dev nD) : (dat1 V c).arrAt 5 cfg1.N = out1 V c :=
  (dat1 V c).arrAt_eq_of_cover 5 (out1 V c) (fun t _ => flushed1_eq V c t) fun i => by
    have h0 : (i 0).val < 100000 := (i 0).isLt
    have h1 : (i 1).val < 64 := (i 1).isLt
    have hN : cfg1.N = 20 := N_1
    have hlt : (i 0).val / 5000 < cfg1.N := by rw [hN]; omega
    refine ⟨⟨(i 0).val / 5000, hlt⟩, flush1_5 _, ?_⟩
    have hi := steps1 ⟨(i 0).val / 5000, hlt⟩
    show i ∈ ((View.whole main_v41).slice (win1_5.rect ⟨(i 0).val / 5000, hlt⟩)).set
    rw [View.set_slice_whole, Rect.mem_set_unit]
    intro a
    match a with
    | ⟨0, _⟩ =>
      show win1_5.index ⟨(i 0).val / 5000, hlt⟩ 0 * 5000 ≤ (i 0).val ∧ (i 0).val < win1_5.index ⟨(i 0).val / 5000, hlt⟩ 0 * 5000 + 5000
      rw [hi.r5]; show (i 0).val / 5000 * 5000 ≤ (i 0).val ∧ (i 0).val < (i 0).val / 5000 * 5000 + 5000; omega
    | ⟨1, _⟩ =>
      show win1_5.index ⟨(i 0).val / 5000, hlt⟩ 1 * 64 ≤ (i 1).val ∧ (i 1).val < win1_5.index ⟨(i 0).val / 5000, hlt⟩ 1 * 64 + 64
      rw [hi.c5]; omega

end Cert.Sage.Region

end
-- ==== Proof.GraphSpec.lean ====
/-
  The whole computation as one function of the nine arguments: two graph-convolution layers over the mean of
  each node's in-neighbours.

  The neighbourhood mean of a feature array `h` along the edge list (`src`, `dst`) gathers row `src[e]` of `h` for
  every edge `e` (a negative `src[e]` counted from the end), adds the gathered rows into the rows `dst[e]` of a zero
  array, and divides row `n` by the number of edges that end at `n`, or by 1 when none does. Both programs compute it
  by the same host operations in the same order, so it is carried here as ONE function, applied to whatever
  features go in, and never opened: the certificate needs only that equal features give equal means.

  With `mean` so named, the hidden features are layer 1 of (`x`, `mean x`) and the result is layer 2 of
  (`hidden`, `mean hidden`).
-/
import proofs.«182070_j2456721293647_2_alg».proof.Proof.Gen.ReferenceIdeal
import proofs.«182070_j2456721293647_2_alg».proof.Proof.DenseSpec

noncomputable section

namespace Cert.Sage

open Cert.ReferenceIdeal Cert.ReferenceIdeal.Gen Idealize.ShloMosaic Idealize.ShloMosaic.ValueIdx

section Mean
variable {F : FTy → Type} [FloatOps F]

/-- The mean over in-neighbours of 3-feature rows. -/
def mean3 (h : (⟨S100000x3, .f32⟩ : BufTy).Contents (Elt F)) (src dst : (⟨S1600000, .i32⟩ : BufTy).Contents (Elt F)) : (⟨S100000x3, .f32⟩ : BufTy).Contents (Elt F) :=
  Host.divf (Host.scatterAdd scatter_S100000x3_S1600000x1_S1600000x3_1_0_0_1 (broadcastInDim S100000x3 ![] bcast_S_S100000x3 (constant S_ .f32 0x00000000#32)) (broadcastInDim S1600000x1 ![0] bcast_S1600000_S1600000x1_0 dst) (Host.gather gather_S100000x3_S1600000x1_S1600000x3_1_0_n_n_0_1_13 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x3 ![0, 1] bcast_S100000x1_S100000x3_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

/-- The mean over in-neighbours of 150-feature rows. -/
def mean150 (h : (⟨S100000x150, .f32⟩ : BufTy).Contents (Elt F)) (src dst : (⟨S1600000, .i32⟩ : BufTy).Contents (Elt F)) : (⟨S100000x150, .f32⟩ : BufTy).Contents (Elt F) :=
  Host.divf (Host.scatterAdd scatter_S100000x150_S1600000x1_S1600000x150_1_0_0_1 (broadcastInDim S100000x150 ![] bcast_S_S100000x150 (constant S_ .f32 0x00000000#32)) (broadcastInDim S1600000x1 ![0] bcast_S1600000_S1600000x1_0 dst) (Host.gather gather_S100000x150_S1600000x1_S1600000x150_1_0_n_n_0_1_1150 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x150 ![0, 1] bcast_S100000x1_S100000x150_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

end Mean

/-- The hidden features: layer 1 of the node features and their neighbourhood mean. -/
def hidden (x : (⟨S100000x3, .f32⟩ : BufTy).Contents (Elt Ideal)) (src dst : (⟨S1600000, .i32⟩ : BufTy).Contents (Elt Ideal))
    (ws1 wn1 : (⟨S3x150, .f32⟩ : BufTy).Contents (Elt Ideal)) (b1 : (⟨S150, .f32⟩ : BufTy).Contents (Elt Ideal)) :
    (⟨S100000x150, .f32⟩ : BufTy).Contents (Elt Ideal) :=
  layer1 x (mean3 x src dst) ws1 wn1 (fun q => b1 (ix1 q))

/-- The result: layer 2 of the hidden features and their neighbourhood mean. -/
def forward (x : (⟨S100000x3, .f32⟩ : BufTy).Contents (Elt Ideal)) (src dst : (⟨S1600000, .i32⟩ : BufTy).Contents (Elt Ideal))
    (ws1 wn1 : (⟨S3x150, .f32⟩ : BufTy).Contents (Elt Ideal)) (b1 : (⟨S150, .f32⟩ : BufTy).Contents (Elt Ideal))
    (ws2 wn2 : (⟨S150x64, .f32⟩ : BufTy).Contents (Elt Ideal)) (b2 : (⟨S64, .f32⟩ : BufTy).Contents (Elt Ideal)) :
    (⟨S100000x64, .f32⟩ : BufTy).Contents (Elt Ideal) :=
  layer2 (hidden x src dst ws1 wn1 b1) (mean150 (hidden x src dst ws1 wn1 b1) src dst) ws2 wn2 (fun q => b2 (ix1 q))

end Cert.Sage

end
-- ==== Proof.KernelValue.lean ====
/-
  The kernel program's result as the two-layer forward function of its arguments.

  The generated fold gives the contents of every buffer at each segment boundary. Read at the buffers the first
  dense kernel takes, the first host stretch leaves the node features, the two weight matrices and the bias (recast
  to one row) as launched, and the neighbourhood mean of the node features in the mean's buffer. The first kernel's
  output array is then layer 1 of these: the hidden features. No later operation writes that array or an argument,
  so the second host stretch reads them back unchanged and leaves the mean of the hidden features; the second
  kernel's output array is layer 2 of the hidden features and that mean, which is the forward function.
-/
import proofs.«182070_j2456721293647_2_alg».proof.Proof.Gen.KernelIdeal.Frame
import proofs.«182070_j2456721293647_2_alg».proof.Proof.RegionValue
import proofs.«182070_j2456721293647_2_alg».proof.Proof.GraphSpec
import Idealize.ShloMosaic.Lib.StableHlo.Run
import Idealize.ShloMosaic.Lib.ValueLayout

set_option maxRecDepth 16384

noncomputable section

namespace Cert.Sage.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## What the first kernel finds -/

/-- No operation of the first host stretch writes argument 0. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

/-- No operation of the first host stretch writes argument 1. -/
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl

/-- No operation of the first host stretch writes argument 2. -/
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

/-- No operation of the first host stretch writes argument 3. -/
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

/-- No operation of the first host stretch writes argument 4. -/
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

/-- No operation of the first host stretch writes argument 5. -/
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-- No operation of the first host stretch writes argument 6. -/
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

/-- No operation of the first host stretch writes argument 7. -/
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-- No operation of the first host stretch writes argument 8. -/
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 4000000 in
/-- The first mean's buffer holds the neighbourhood mean of the node features. -/
theorem W1_mean (c : Dev nD) : W1 m ρ c (Proc.devRef .tc main_v18)
    = Cert.Sage.mean3 (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

/-- Layer 1's bias, recast to one row. -/
theorem W1_bias (c : Dev nD) : W1 m ρ c (Proc.devRef .tc main_v19)
    = shapeCast S1x150 (m ((c : Thread nD τ).loc main_arg5)) shapeCasts_S150_S1x150 := by
  show StableHlo.after hostOps0 (W0 m ρ c) (Proc.devRef .tc main_v19) = _
  after_results_simp <;> rfl

/-! ## The hidden features -/

/-- After the first kernel its output array holds the hidden features of the arguments. -/
theorem W2_hidden (c : Dev nD) : W2 m ρ c (Proc.devRef .tc main_v20)
    = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Cert.Sage.Region.final0 (V1 m ρ) c).trans ?_)
  unfold Cert.Sage.Region.out0 Cert.Sage.hidden
  have e0 : V1 m ρ c main_arg0 = m ((c : Thread nD τ).loc main_arg0) := W1_arg0 m ρ c
  have e3 : V1 m ρ c main_arg3 = m ((c : Thread nD τ).loc main_arg3) := W1_arg3 m ρ c
  have e4 : V1 m ρ c main_arg4 = m ((c : Thread nD τ).loc main_arg4) := W1_arg4 m ρ c
  have ea : V1 m ρ c main_v18 = Cert.Sage.mean3 (m ((c : Thread nD τ).loc main_arg0)) (m ((c : Thread nD τ).loc main_arg1)) (m ((c : Thread nD τ).loc main_arg2)) := W1_mean m ρ c
  have eb : (fun q : Fin 150 => (V1 m ρ c main_v19 : S1x150.Idx → EReal) (ix2 (0 : Fin 1) q))
      = fun q : Fin 150 => (m ((c : Thread nD τ).loc main_arg5) : S150.Idx → EReal) (ix1 q) := funext fun q => by
    rw [show V1 m ρ c main_v19 = shapeCast S1x150 (m ((c : Thread nD τ).loc main_arg5)) shapeCasts_S150_S1x150 from W1_bias m ρ c]
    exact shapeCast_a_1a_apply _ _ 0 q
  rw [e0, e3, e4, ea, eb]

/-- The first kernel writes no argument, and none is an array it stages as an output. -/
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## What the second kernel finds -/

/-- The second host stretch leaves the hidden features where the first kernel wrote them. -/
theorem W3_hidden (c : Dev nD) : W3 m ρ c (Proc.devRef .tc main_v20) = W2 m ρ c (Proc.devRef .tc main_v20) := by
  show StableHlo.after hostOps1 (W2 m ρ c) (Proc.devRef .tc main_v20) = _
  after_results_simp <;> rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

set_option maxHeartbeats 4000000 in
/-- The second mean's buffer holds the neighbourhood mean of whatever the first kernel's output array holds. -/
theorem W3_mean (c : Dev nD) : W3 m ρ c (Proc.devRef .tc main_v39)
    = Cert.Sage.mean150 (W2 m ρ c (Proc.devRef .tc main_v20)) (W2 m ρ c (Proc.devRef .tc main_arg1)) (W2 m ρ c (Proc.devRef .tc main_arg2)) := by
  show StableHlo.after hostOps1 (W2 m ρ c) (Proc.devRef .tc main_v39) = _
  after_results_simp <;> rfl

/-- Layer 2's bias, recast to one row. -/
theorem W3_bias (c : Dev nD) : W3 m ρ c (Proc.devRef .tc main_v40)
    = shapeCast S1x64 (W2 m ρ c (Proc.devRef .tc main_arg8)) shapeCasts_S64_S1x64 := by
  show StableHlo.after hostOps1 (W2 m ρ c) (Proc.devRef .tc main_v40) = _
  after_results_simp <;> rfl

/-! ## The result -/

/-- After the second kernel its output array — the program's result — holds the forward function of the
    arguments. -/
theorem result (c : Dev nD) : W4 m ρ c (Proc.devRef .tc main_v41)
    = Cert.Sage.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.Sage.Region.final1 (V3 m ρ) c).trans ?_)
  unfold Cert.Sage.Region.out1 Cert.Sage.forward
  have eh : V3 m ρ c main_v20 = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (W3_hidden m ρ c).trans (W2_hidden m ρ c)
  have ea : V3 m ρ c main_v39 = Cert.Sage.mean150 (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) :=
    (W3_mean m ρ c).trans (by rw [W2_hidden, W2_arg1, W2_arg2])
  have e6 : V3 m ρ c main_arg6 = m ((c : Thread nD τ).loc main_arg6) := (W3_arg6 m ρ c).trans (W2_arg6 m ρ c)
  have e7 : V3 m ρ c main_arg7 = m ((c : Thread nD τ).loc main_arg7) := (W3_arg7 m ρ c).trans (W2_arg7 m ρ c)
  have eb : (fun q : Fin 64 => (V3 m ρ c main_v40 : S1x64.Idx → EReal) (ix2 (0 : Fin 1) q))
      = fun q : Fin 64 => (m ((c : Thread nD τ).loc main_arg8) : S64.Idx → EReal) (ix1 q) := funext fun q => by
    rw [show V3 m ρ c main_v40 = shapeCast S1x64 (W2 m ρ c (Proc.devRef .tc main_arg8)) shapeCasts_S64_S1x64 from W3_bias m ρ c, W2_arg8]
    exact shapeCast_a_1a_apply _ _ 0 q
  rw [eh, ea, e6, e7, eb]

end Cert.Sage.Kernel

end
-- ==== Proof.RefValue.lean ====
/-
  The reference's result, read one operation at a time, is the two-layer forward function of its arguments.

  Each matrix product of the reference is, over the extended reals, the sum over the contracted axis of the
  products of the operands' entries; its bias is broadcast along the rows; its rectifier is the maximum with a zero
  array. Reading the generated stage functions at an index therefore gives layer 1's and layer 2's entries in the
  specification's own grouping. The two neighbourhood means are the specification's `mean3` and `mean150` of the
  features that go into them: they are the same terms, operation for operation.
-/
import proofs.«182070_j2456721293647_2_alg».proof.Proof.Gen.ReferenceIdeal.Read
import proofs.«182070_j2456721293647_2_alg».proof.Proof.GraphSpec

noncomputable section

namespace Cert.Sage.Ref

open Cert.ReferenceIdeal Cert.ReferenceIdeal.Gen Cert.ReferenceIdeal.Read Idealize.ShloMosaic Idealize.ShloMosaic.ValueIdx

variable (x0 : (⟨S100000x3, .f32⟩ : BufTy).Contents (Elt Ideal)) (x1 x2 : (⟨S1600000, .i32⟩ : BufTy).Contents (Elt Ideal))
  (x3 x4 : (⟨S3x150, .f32⟩ : BufTy).Contents (Elt Ideal)) (x5 : (⟨S150, .f32⟩ : BufTy).Contents (Elt Ideal))
  (x6 x7 : (⟨S150x64, .f32⟩ : BufTy).Contents (Elt Ideal)) (x8 : (⟨S64, .f32⟩ : BufTy).Contents (Elt Ideal))

/-- The reference's first neighbourhood mean is `mean3` of the node features. -/
theorem mean1_eq : val_main_v18 (F := Ideal) x0 x1 x2 = Cert.Sage.mean3 x0 x1 x2 := rfl

/-- The reference's hidden features (after the rectifier) are layer 1 of the node features and their mean. -/
theorem hidden_eq : val_main_v25 (F := Ideal) x0 x1 x2 x3 x4 x5 = Cert.Sage.hidden x0 x1 x2 x3 x4 x5 := by
  unfold Cert.Sage.hidden
  rw [← mean1_eq]
  funext i
  have l19 : ∀ k, lidx_main_v19 i k = ix2 (⟨(i 0).val, (i 0).isLt⟩ : Fin 100000) k :=
    fun k => funext fun a => by match a with | ⟨0, _⟩ => rfl | ⟨1, _⟩ => rfl
  have r19 : ∀ k, ridx_main_v19 i k = ix2 k (⟨(i 1).val, (i 1).isLt⟩ : Fin 150) :=
    fun k => funext fun a => by match a with | ⟨0, _⟩ => rfl | ⟨1, _⟩ => rfl
  have l20 : ∀ k, lidx_main_v20 i k = ix2 (⟨(i 0).val, (i 0).isLt⟩ : Fin 100000) k :=
    fun k => funext fun a => by match a with | ⟨0, _⟩ => rfl | ⟨1, _⟩ => rfl
  have r20 : ∀ k, ridx_main_v20 i k = ix2 k (⟨(i 1).val, (i 1).isLt⟩ : Fin 150) :=
    fun k => funext fun a => by match a with | ⟨0, _⟩ => rfl | ⟨1, _⟩ => rfl
  have hb : idx_main_v22 (idx_main_v23 i) = ix1 (⟨(i 1).val, (i 1).isLt⟩ : Fin 150) :=
    funext fun a => by match a with | ⟨0, _⟩ => rfl
  rw [val_main_v25_apply, val_main_v24_apply, val_main_v21_apply, val_main_v19_apply, val_main_v20_apply,
    val_main_v23_apply, val_main_v22_apply, val_main_call0_v0_apply, val_main_call0_cst_apply]
  unfold Cert.Sage.layer1 Cert.Sage.affine1
  simp only [l19, r19, l20, r20, hb, Ideal.maximumf_def, Ideal.addf_def, Ideal.ofBits_def, Ideal.ofBits_zero_f32]

/-- The reference's second neighbourhood mean is `mean150` of its hidden features. -/
theorem mean2_eq : val_main_v44 (F := Ideal) x0 x1 x2 x3 x4 x5
    = Cert.Sage.mean150 (val_main_v25 (F := Ideal) x0 x1 x2 x3 x4 x5) x1 x2 := rfl

/-- The reference's result is the forward function of its nine arguments. -/
theorem result_eq : val_main_v50 (F := Ideal) x0 x1 x2 x3 x4 x5 x6 x7 x8 = Cert.Sage.forward x0 x1 x2 x3 x4 x5 x6 x7 x8 := by
  unfold Cert.Sage.forward
  rw [← hidden_eq, ← mean2_eq]
  funext i
  have l45 : ∀ k, lidx_main_v45 i k = ix2 (⟨(i 0).val, (i 0).isLt⟩ : Fin 100000) k :=
    fun k => funext fun a => by match a with | ⟨0, _⟩ => rfl | ⟨1, _⟩ => rfl
  have r45 : ∀ k, ridx_main_v45 i k = ix2 k (⟨(i 1).val, (i 1).isLt⟩ : Fin 64) :=
    fun k => funext fun a => by match a with | ⟨0, _⟩ => rfl | ⟨1, _⟩ => rfl
  have l46 : ∀ k, lidx_main_v46 i k = ix2 (⟨(i 0).val, (i 0).isLt⟩ : Fin 100000) k :=
    fun k => funext fun a => by match a with | ⟨0, _⟩ => rfl | ⟨1, _⟩ => rfl
  have r46 : ∀ k, ridx_main_v46 i k = ix2 k (⟨(i 1).val, (i 1).isLt⟩ : Fin 64) :=
    fun k => funext fun a => by match a with | ⟨0, _⟩ => rfl | ⟨1, _⟩ => rfl
  have hb : idx_main_v48 (idx_main_v49 i) = ix1 (⟨(i 1).val, (i 1).isLt⟩ : Fin 64) :=
    funext fun a => by match a with | ⟨0, _⟩ => rfl
  rw [val_main_v50_apply, val_main_v47_apply, val_main_v45_apply, val_main_v46_apply, val_main_v49_apply, val_main_v48_apply]
  unfold Cert.Sage.layer2
  simp only [l45, r45, l46, r46, hb, Ideal.addf_def]

end Cert.Sage.Ref

end
-- ==== Proof.lean ====
/-
  A two-layer graph convolution with mean aggregation: a tiled kernel program against its plain reference,
  equal over the extended reals.

  Both programs compute, for node features `x`, an edge list (`src`, `dst`) and two layers' weights and biases,

      hidden = max((x · W1self + mean(x) · W1neigh) + b1, 0),
      result = (hidden · W2self + mean(hidden) · W2neigh) + b2,

  where `mean(h)` is the mean of each node's in-neighbours' rows of `h` (the sum divided by the in-degree, or by 1
  for a node without in-neighbours). The reference is this text, operation by operation. The kernel program computes
  the two means with the very same host operations and each dense half in a kernel that walks the 100000 nodes
  in 20 blocks of 5000 rows, rounding its operands to a shorter float format before each matrix product. Over the
  extended reals the rounding is the identity, a matrix product into a zero accumulator is the plain sum over the
  contracted axis, and a block of rows of a matrix product is the product of that block of rows; the two programs add
  the two products first and the bias last, in the same order. So the two results are the same function of the
  arguments, entry by entry, with no algebraic law applied and hence no use of the inputs' finiteness.

  The modules: `DenseSpec` and `GraphSpec` state the layers, the mean and the forward function; `BlockPayload` reads
  what one grid step stores at an index; `RegionValue` assembles a kernel's 20 blocks into its output array;
  `KernelRun` is the kernel program's run with the last buffer contents kept; `KernelValue` follows the contents
  through the four segments to the forward function; `RefValue` reads the reference's run as the forward function.
  The ideal pass rewrote nothing in the kernel, so there is nothing to preserve beyond the program's own text.
-/
import proofs.«182070_j2456721293647_2_alg».proof.Defs
import proofs.«182070_j2456721293647_2_alg».proof.Proof.Gen.Kernel
import proofs.«182070_j2456721293647_2_alg».proof.Proof.Gen.Kernel.Skeleton
import proofs.«182070_j2456721293647_2_alg».proof.Proof.Gen.Kernel.Launch
import proofs.«182070_j2456721293647_2_alg».proof.Proof.Gen.Kernel.Points
import proofs.«182070_j2456721293647_2_alg».proof.Proof.Gen.Kernel.Frame
import proofs.«182070_j2456721293647_2_alg».proof.Proof.Gen.KernelIdeal
import proofs.«182070_j2456721293647_2_alg».proof.Proof.Gen.KernelIdeal.Skeleton
import proofs.«182070_j2456721293647_2_alg».proof.Proof.Gen.KernelIdeal.Launch
import proofs.«182070_j2456721293647_2_alg».proof.Proof.Gen.KernelIdeal.Points
import proofs.«182070_j2456721293647_2_alg».proof.Proof.Gen.KernelIdeal.Frame
import proofs.«182070_j2456721293647_2_alg».proof.Proof.Gen.ReferenceIdeal
import proofs.«182070_j2456721293647_2_alg».proof.Proof.Gen.ReferenceIdeal.Run
import proofs.«182070_j2456721293647_2_alg».proof.Proof.Gen.ReferenceIdeal.Read
import proofs.«182070_j2456721293647_2_alg».proof.Proof.Gen.Pre_finite_inputs
import proofs.«182070_j2456721293647_2_alg».proof.Proof.KernelRun
import proofs.«182070_j2456721293647_2_alg».proof.Proof.KernelValue
import proofs.«182070_j2456721293647_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories that agree on the nine arguments both programs end with the forward function of those
    arguments in their result buffers. -/
theorem algebraic : Cert.algebraic_KernelIdeal_ReferenceIdeal := by
  intro m ρ m' ρ' _ hagree
  refine ⟨fun c => Cert.Sage.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.Kernel.result m ρ c), (h c).2⟩) (Cert.Sage.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v50_eq, Cert.Sage.Ref.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
